-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x16 .f32) (main_arg5 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S50000x16 : Shape := ⟨2, ![50000, 16]⟩
abbrev S2000x16 : Shape := ⟨2, ![2000, 16]⟩
abbrev S850000x16 : Shape := ⟨2, ![850000, 16]⟩
abbrev S6250x128 : Shape := ⟨2, ![6250, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩

abbrev nBuf : Space → Nat
  | .hbm => 93
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .bf16⟩
  | .hbm, ⟨59, _⟩ => ⟨S850000x64, .f32⟩
  | .hbm, ⟨60, _⟩ => ⟨S850000x1, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x16, .bf16⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x16, .bf16⟩
  | .hbm, ⟨78, _⟩ => ⟨S850000x16, .f32⟩
  | .hbm, ⟨79, _⟩ => ⟨S850000x1, .f32⟩
  | .hbm, ⟨80, _⟩ => ⟨S850000x16, .f32⟩
  | .hbm, ⟨81, _⟩ => ⟨S850000x16, .f32⟩
  | .hbm, ⟨82, _⟩ => ⟨S_, .f32⟩
  | .hbm, ⟨83, _⟩ => ⟨S50000x16, .f32⟩
  | .hbm, ⟨84, _⟩ => ⟨S850000x1, .i32⟩
  | .hbm, ⟨85, _⟩ => ⟨S50000x16, .f32⟩
  | .hbm, ⟨86, _⟩ => ⟨S6250x128, .f32⟩
  | .hbm, ⟨87, _⟩ => ⟨S1x16, .f32⟩
  | .hbm, ⟨88, _⟩ => ⟨S8x16, .f32⟩
  | .hbm, ⟨89, _⟩ => ⟨S128, .f32⟩
  | .hbm, ⟨90, _⟩ => ⟨S1x128, .f32⟩
  | .hbm, ⟨91, _⟩ => ⟨S6250x128, .f32⟩
  | .hbm, ⟨92, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .bf16⟩
  | .local _ .vmem, ⟨4, _⟩ => ⟨S2000x64, .bf16⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x16, .f32⟩
  | .local _ .vmem, ⟨9, _⟩ => ⟨S2000x16, .bf16⟩
  | .local _ .vmem, ⟨10, _⟩ => ⟨S2000x16, .bf16⟩
  | .local _ .vmem, ⟨11, _⟩ => ⟨S6250x128, .f32⟩
  | .local _ .vmem, ⟨12, _⟩ => ⟨S1x128, .f32⟩
  | .local _ .vmem, ⟨13, _⟩ => ⟨S6250x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S6250x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S6250x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  packedbf16_S2000x16_S2000x16_0_0 : (Rect.unit (s := S2000x16) ![0, 0] S2000x16.size inb_S2000x16_S2000x16_0_0).PackedRows (EltTy.packing .bf16)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S50000x16_S6250x128 : S50000x16.ShapeCasts S6250x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S6250x128_S6250x128_0_0 : ∀ a, (![0, 0] : Fin 2 → Nat) a + S6250x128.size a ≤ S6250x128.size a
  h_S6250x128 : 0 < S6250x128.numel
  shapeCasts_S6250x128_S6250x128 : S6250x128.ShapeCasts S6250x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6250x128 : S1x128.Broadcasts S6250x128
  shapeCasts_S6250x128_S50000x16 : S6250x128.ShapeCasts S50000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x16_S2000x16_1_0_0_1_n_n_wf : DotDims.WF S2000x64 S64x16 S2000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S50000x16.size a
  hwx1_3 : ∀ i : grid1.Coords, EltTy.bits .bf16 = 32 ∨ (Rect.block (s := S50000x16) S2000x16.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S6250x128.size a ≤ S6250x128.size a
  hwx2_0 : ∀ i : grid2.Coords, EltTy.bits .f32 = 32 ∨ (Rect.block (s := S6250x128) S6250x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S6250x128.size a ≤ S6250x128.size a
  hwx2_2 : ∀ i : grid2.Coords, EltTy.bits .f32 = 32 ∨ (Rect.block (s := S6250x128) S6250x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S6250x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S6250x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x16, .f32⟩
  | 5 => ⟨S16, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x16, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x16, .f32⟩
  | 121 => ⟨S850000x1, .f32⟩
  | 122 => ⟨S850000x16, .f32⟩
  | 123 => ⟨S850000x16, .f32⟩
  | 124 => ⟨S_, .f32⟩
  | 125 => ⟨S50000x16, .f32⟩
  | 126 => ⟨S850000x1, .i32⟩
  | 127 => ⟨S50000x16, .f32⟩
  | _ => ⟨S50000x128, .f32⟩

abbrev hbmTy0_1 (i : Nat) : BufTy := match i % 128 with
  | 0 => ⟨S1x16, .f32⟩
  | 1 => ⟨S50000x16, .f32⟩
  | 2 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's whole run, with its result named.

  @main is nine segments: three stretches of host operations, the first matrix product on 25 row blocks, a
  stretch of host operations (gather, scale, scatter-add), the fused bias / rectifier / second product on 25 row
  blocks, another such stretch, the final bias addition on one block, and a last reshape. The contents of every
  buffer at each boundary are a fold from the launch memory (`W0` … `W9`). Every weakly fair execution ends with
  every unscoped buffer at the last fold `W9`; read at the result buffer this names the result, and read at each
  argument it gives the argument back.
-/
import proofs.«181336_j1709396984302_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six arguments as launched. -/
theorem run : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibDenseSteps.lean ====
/-
  The dense steps of a two-layer graph convolution, entry by entry on the extended reals.

  * `prod x w`: the product of an [a, n] matrix with an [n, b] matrix; entry (p, e) is the sum over k of
    x(p, k) * w(k, e). The matrix unit's product into a zero accumulator and the host's general product
    contracting axis 1 with axis 0 are both this function, whatever float formats hold the operands.
  * `biasRelu g β`: a length-n vector β added along every row of an [a, n] matrix g, then the larger of the
    sum and zero, entry by entry: max (g(p, e) + β(e), 0).
  * `addRow g β`: the same without the maximum: g(p, e) + β(e).
  Each is proved equal to the spelling a kernel body gives it on a block of rows (the vector given as a one-row
  matrix and repeated down the rows) and to the spelling of the host program (the vector laid along axis 1 of a
  one-row matrix, then repeated along axis 0). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«181336_j1709396984302_2_alg».proof.Proof.LibColsMatmul

noncomputable section

namespace Cert.Layers

open Idealize.ShloMosaic Idealize.ShloMosaic.ValueIdx Cert.ColsMatmul

variable {a n b : ℕ}

/-- The matrix product: entry (p, e) is the sum over k of x(p, k) * w(k, e). -/
def prod (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

theorem prod_apply (x : (⟨2, ![a, n]⟩ : Shape).Idx → EReal) (w : (⟨2, ![n, b]⟩ : Shape).Idx → EReal) (p : Fin a) (e : Fin b) :
    prod x w (ix2 p e) = ∑ k : Fin n, x (ix2 p k) * w (ix2 k e) := rfl

/-- A one-row matrix β added along every row of g, then the larger of the sum and zero. -/
def biasReluRow (g : (⟨2, ![a, n]⟩ : Shape).Idx → EReal) (β : (⟨2, ![1, n]⟩ : Shape).Idx → EReal) :
    (⟨2, ![a, n]⟩ : Shape).Idx → EReal :=
  fun i => max (g i + β (ix2 (0 : Fin 1) (i 1))) (Ideal.ofBits .f32 0x00000000#32)

/-- A vector β added along every row of g, then the larger of the sum and zero. -/
def biasRelu (g : (⟨2, ![a, n]⟩ : Shape).Idx → EReal) (β : (⟨1, ![n]⟩ : Shape).Idx → EReal) :
    (⟨2, ![a, n]⟩ : Shape).Idx → EReal :=
  fun i => max (g i + β (ix1 (i 1))) (Ideal.ofBits .f32 0x00000000#32)

/-- A one-row matrix β added along every row of g. -/
def addRowRow (g : (⟨2, ![a, n]⟩ : Shape).Idx → EReal) (β : (⟨2, ![1, n]⟩ : Shape).Idx → EReal) :
    (⟨2, ![a, n]⟩ : Shape).Idx → EReal :=
  fun i => g i + β (ix2 (0 : Fin 1) (i 1))

/-- A vector β added along every row of g. -/
def addRow (g : (⟨2, ![a, n]⟩ : Shape).Idx → EReal) (β : (⟨1, ![n]⟩ : Shape).Idx → EReal) :
    (⟨2, ![a, n]⟩ : Shape).Idx → EReal :=
  fun i => g i + β (ix1 (i 1))

/-- An entry of a product depends on one row of the left factor and one column of the right factor. -/
theorem prod_congr {a' b' : ℕ} (x : (⟨2, ![a, n]⟩ : Shape).Idx → EReal) (w : (⟨2, ![n, b]⟩ : Shape).Idx → EReal)
    (x' : (⟨2, ![a', n]⟩ : Shape).Idx → EReal) (w' : (⟨2, ![n, b']⟩ : Shape).Idx → EReal)
    (i : (⟨2, ![a, b]⟩ : Shape).Idx) (i' : (⟨2, ![a', b']⟩ : Shape).Idx)
    (hx : ∀ k : Fin n, x (ix2 (i 0) k) = x' (ix2 (i' 0) k)) (hw : ∀ k : Fin n, w (ix2 k (i 1)) = w' (ix2 k (i' 1))) :
    prod x w i = prod x' w' i' :=
  Finset.sum_congr rfl fun k _ => by rw [hx k, hw k]

/-- An entry of the rectified sum depends on that entry of the matrix and that entry of the row. -/
theorem biasReluRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal) (p : Fin a) (p' : Fin a') (k : Fin n)
    (hg : g (ix2 p k) = g' (ix2 p' k)) (hβ : β (ix2 (0 : Fin 1) k) = β' (ix2 (0 : Fin 1) k)) :
    biasReluRow g β (ix2 p k) = biasReluRow g' β' (ix2 p' k) := by
  show max (g (ix2 p k) + β (ix2 (0 : Fin 1) k)) _ = max (g' (ix2 p' k) + β' (ix2 (0 : Fin 1) k)) _
  rw [hg, hβ]

/-- An entry of the sum with a row depends on that entry of the matrix and that entry of the row. -/
theorem addRowRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hβ : β (ix2 (0 : Fin 1) (i 1)) = β' (ix2 (0 : Fin 1) (i' 1))) :
    addRowRow g β i = addRowRow g' β' i' := by
  show g i + β (ix2 (0 : Fin 1) (i 1)) = g' i' + β' (ix2 (0 : Fin 1) (i' 1))
  rw [hg, hβ]

/-! ## The two products -/

variable (wf : DotDims.WF ⟨2, ![a, n]⟩ ⟨2, ![n, b]⟩ ⟨2, ![a, b]⟩ [1] [0] [0] [1] [] [])

/-- The matrix unit's product of an [a, n] and an [n, b] operand into the zero accumulator is `prod`. -/
theorem matmul_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    FloatOps.matmul d none x w (constant ⟨2, ![a, b]⟩ .f32 0x00000000#32) = prod x w := by
  funext i
  obtain ⟨p, e, rfl⟩ : ∃ (p : Fin a) (e : Fin b), i = ix2 p e := ⟨i 0, i 1, eq_ix2 i⟩
  exact cols_matmul wf d hd x w p e

/-- The host's general product contracting axis 1 of the left operand with axis 0 of the right is `prod`. -/
theorem dotGeneral_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    Host.dotGeneral d none x w = prod x w := by
  subst hd
  funext i
  obtain ⟨p, e, rfl⟩ : ∃ (p : Fin a) (e : Fin b), i = ix2 p e := ⟨i 0, i 1, eq_ix2 i⟩
  exact (Ideal.dotGeneral_apply (colsDims wf) none .single x w (ix2 p e)).trans (contraction_cols wf x w p e)

/-! ## A vector along the rows -/

/-- A vector seen as a one-row matrix reads its entry e at (0, e). -/
theorem row_of_vector (β : (⟨1, ![n]⟩ : Shape).Idx → EReal) (h : (⟨1, ![n]⟩ : Shape).ShapeCasts ⟨2, ![1, n]⟩) (e : Fin n) :
    shapeCast ⟨2, ![1, n]⟩ β h (ix2 (0 : Fin 1) e) = β (ix1 e) :=
  shapeCast_a_1a_apply β h (0 : Fin 1) e

theorem biasReluRow_row (g : (⟨2, ![a, n]⟩ : Shape).Idx → EReal) (β : (⟨1, ![n]⟩ : Shape).Idx → EReal)
    (h : (⟨1, ![n]⟩ : Shape).ShapeCasts ⟨2, ![1, n]⟩) :
    biasReluRow g (shapeCast ⟨2, ![1, n]⟩ β h) = biasRelu g β := by
  funext i
  obtain ⟨p, e, rfl⟩ : ∃ (p : Fin a) (e : Fin n), i = ix2 p e := ⟨i 0, i 1, eq_ix2 i⟩
  show max (g (ix2 p e) + shapeCast ⟨2, ![1, n]⟩ β h (ix2 (0 : Fin 1) e)) (Ideal.ofBits .f32 0x00000000#32)
    = max (g (ix2 p e) + β (ix1 e)) (Ideal.ofBits .f32 0x00000000#32)
  rw [row_of_vector]

theorem addRowRow_row (g : (⟨2, ![a, n]⟩ : Shape).Idx → EReal) (β : (⟨1, ![n]⟩ : Shape).Idx → EReal)
    (h : (⟨1, ![n]⟩ : Shape).ShapeCasts ⟨2, ![1, n]⟩) :
    addRowRow g (shapeCast ⟨2, ![1, n]⟩ β h) = addRow g β := by
  funext i
  obtain ⟨p, e, rfl⟩ : ∃ (p : Fin a) (e : Fin n), i = ix2 p e := ⟨i 0, i 1, eq_ix2 i⟩
  show g (ix2 p e) + shapeCast ⟨2, ![1, n]⟩ β h (ix2 (0 : Fin 1) e) = g (ix2 p e) + β (ix1 e)
  rw [row_of_vector]

/-! ## The kernel's vector spelling, on a block of rows -/

/-- A block g and a one-row block β: β repeated down the rows, added, and the maximum with a zero splat. -/
theorem kernel_biasRelu (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ g hg) (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self, shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem kernel_addRow (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    addf (shapeCast ⟨2, ![a, n]⟩ g hg) (broadcastTo ⟨2, ![a, n]⟩ (shapeCast ⟨2, ![1, n]⟩ β hβ) hb) = addRowRow g β := by
  rw [shapeCast_self, shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling -/

/-- The host lays a vector along axis 1 of a one-row matrix and repeats that along axis 0: at (p, e) it reads β(e). -/
theorem host_row (β : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-- The host's sum with a vector along the rows. -/
theorem host_addRow (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) :
    addf g (broadcastInDim ⟨2, ![a, n]⟩ ![0, 1] h2 (broadcastInDim ⟨2, ![1, n]⟩ ![1] h1 β)) = addRow g β := by
  funext i
  obtain ⟨p, e, rfl⟩ : ∃ (p : Fin a) (e : Fin n), i = ix2 p e := ⟨i 0, i 1, eq_ix2 i⟩
  show g (ix2 p e) + broadcastInDim ⟨2, ![a, n]⟩ ![0, 1] h2 (broadcastInDim ⟨2, ![1, n]⟩ ![1] h1 β) (ix2 p e) = _
  rw [host_row]
  rfl

/-- The host's sum with a vector along the rows followed by the maximum with a zero splat. -/
theorem host_biasRelu (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf g (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32))
      = biasRelu g β := by
  rw [host_addRow]
  funext i
  show max (addRow g β i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.Layers

end
-- ==== Proof.Region0.lean ====
/-
  The first pallas_call, on the whole array.

  The grid has 25 points. Point t reads rows 2000 t … 2000 t + 1999 of the [50000, 128] input and the whole
  [128, 64] weight matrix, and writes rows 2000 t … 2000 t + 1999 of the [50000, 64] output: the product of its
  row block with the weights. Row p of a product depends only on row p of the left factor, so every block of the
  output is the corresponding block of ONE function of the whole arrays, the product `prod x w`; the 25 row
  blocks cover the output, so after the region the output array is that product. This is stated for any contents
  `V` of the buffers at the region's entry.
-/
import proofs.«181336_j1709396984302_2_alg».proof.Proof.Gen.KernelIdeal.Frame
import proofs.«181336_j1709396984302_2_alg».proof.Proof.LibDenseSteps
import Idealize.ShloMosaic.Lib.Pipeline.Value

set_option maxRecDepth 16384

noncomputable section

namespace Cert.KernelIdeal.Region0

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- On a block of 2000 rows the body stores the product of the block with the weights (the changes of float
    format around the matrix unit are the identity on the extended reals). -/
theorem payload (x0 : Vec Ideal S2000x128 .f32) (x1 : Vec Ideal S128x64 .f32) : k0_pay1 x0 x1 = prod x0 x1 :=
  matmul_eq_prod dot_S2000x128_S128x64_S2000x64_1_0_0_1_n_n.wf dot_S2000x128_S128x64_S2000x64_1_0_0_1_n_n rfl
    (truncf .bf16 x0 bitsLt_bf16_f32) (truncf .bf16 x1 bitsLt_bf16_f32)

/-- The block indices over the grid: the input's and the output's row block at point t is t, the weights' block
    and every column block is 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every one of the 25 row blocks is some point's. -/
theorem block_onto : ∀ q : Fin 25, ∃ t : Fin cfg0.N, win0_2.index t = ![q.val, 0] :=
  (by decide +kernel : ∀ q : Fin 25, ∃ t : Fin grid0.N, win0_2.index t = ![q.val, 0])

/-- What point t writes back is block t of the product of the whole arrays. -/
theorem flushed (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x64) zero_offsets]
  rw [payload]
  obtain ⟨e0, e1, e2, e3, e4, e5⟩ := block_indices t
  funext j
  have hj0 : (j 0).val < 2000 := (j 0).isLt
  have hj1 : (j 1).val < 64 := (j 1).isLt
  show prod (iblk0 V c 0 t) (iblk0 V c 1 t) j = prod (V c main_arg0) (V c main_arg2) (((cfg0.win 2).blk t).view.emb j)
  unfold prod
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of the output array is in point t's block iff each coordinate is in the block's range on its axis. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- The 25 row blocks cover the output: row r is in block r / 2000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region the output array is the product of the two input arrays as the region found them. -/
theorem array (c : Dev nD) : (dat0 V c).arrAt 2 cfg0.N = prod (V c main_arg0) (V c main_arg2) :=
  (dat0 V c).arrAt_eq_of_cover 2 _ (fun t _ => flushed V c t) covered

end Cert.KernelIdeal.Region0

end
-- ==== Proof.Region1.lean ====
/-
  The second pallas_call, on the whole array.

  The grid has 25 points. Point t reads rows 2000 t … 2000 t + 1999 of the [50000, 64] aggregate, the whole
  one-row bias [1, 64] and the whole [64, 16] weight matrix, and writes rows 2000 t … 2000 t + 1999 of the
  [50000, 16] output: the bias added along the rows of its block, the larger of that and zero, times the weights.
  Entry (p, k) of the rectified sum depends only on entry (p, k) of the aggregate and entry k of the bias, and row p
  of a product only on row p of its left factor; so every block of the output is the corresponding block of ONE
  function of the whole arrays, and the 25 row blocks cover the output. Stated for any contents `V` of the buffers
  at the region's entry.
-/
import proofs.«181336_j1709396984302_2_alg».proof.Proof.Gen.KernelIdeal.Frame
import proofs.«181336_j1709396984302_2_alg».proof.Proof.LibDenseSteps
import Idealize.ShloMosaic.Lib.Pipeline.Value

set_option maxRecDepth 16384

noncomputable section

namespace Cert.KernelIdeal.Region1

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- On a block of 2000 rows the body stores the product of the rectified sum with the weights. -/
theorem payload (x0 : Vec Ideal S2000x64 .f32) (x1 : Vec Ideal S1x64 .f32) (x2 : Vec Ideal S64x16 .f32) :
    k1_pay1 x0 x1 x2 = prod (biasReluRow x0 x1) x2 := by
  rw [← kernel_biasRelu x0 x1 shapeCasts_S2000x64_S2000x64 shapeCasts_S1x64_S1x64 broadcasts_S1x64_S2000x64]
  exact matmul_eq_prod dot_S2000x64_S64x16_S2000x16_1_0_0_1_n_n.wf dot_S2000x64_S64x16_S2000x16_1_0_0_1_n_n rfl
    (truncf .bf16 (maximumf (addf (shapeCast S2000x64 x0 shapeCasts_S2000x64_S2000x64)
        (broadcastTo S2000x64 (shapeCast S1x64 x1 shapeCasts_S1x64_S1x64) broadcasts_S1x64_S2000x64))
      (broadcast S2000x64 (Scalar.ofBits (F := Ideal) .f32 0x00000000#32))) bitsLt_bf16_f32)
    (truncf .bf16 x2 bitsLt_bf16_f32)

/-- The block indices over the grid: the aggregate's and the output's row block at point t agree, every other block
    index is 0. -/
theorem block_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every one of the 25 row blocks is some point's. -/
theorem block_onto : ∀ q : Fin 25, ∃ t : Fin cfg1.N, win1_3.index t = ![q.val, 0] :=
  (by decide +kernel : ∀ q : Fin 25, ∃ t : Fin grid1.N, win1_3.index t = ![q.val, 0])

/-- What point t writes back is block t of the rectified sum times the weights, of the whole arrays. -/
theorem flushed (c : Dev nD) (t : Fin cfg1.N) :
    (dat1 V c).flushed 3 t = ((cfg1.win 3).blk t).view.read (Elt Ideal)
      (prod (biasReluRow (V c main_v46) (V c main_v47)) (V c main_arg4)) := by
  show (cfg1.win 3).cut (grid1.coords t) ((dat1 V c).after 3 t) = _
  rw [after1_3]
  unfold out1_3
  rw [View.canon_unit_zero zero_offsets]
  simp only [View.ld_unit_zero (S := S2000x64) zero_offsets, View.ld_unit_zero (S := S1x64) zero_offsets,
    View.ld_unit_zero (S := S64x16) zero_offsets]
  rw [payload]
  obtain ⟨e0, e1, e2, e3, e4, e5, e6⟩ := block_indices t
  funext j
  show prod (biasReluRow (iblk1 V c 0 t) (iblk1 V c 1 t)) (iblk1 V c 2 t) j
    = prod (biasReluRow (V c main_v46) (V c main_v47)) (V c main_arg4) (((cfg1.win 3).blk t).view.emb j)
  refine prod_congr _ _ _ _ j (((cfg1.win 3).blk t).view.emb j) (fun k => ?_) (fun k => ?_)
  · refine biasReluRow_congr _ _ _ _ (j 0) ((((cfg1.win 3).blk t).view.emb j) 0) k ?_ ?_
    · show V c main_v46 (((cfg1.win 0).blk t).view.emb (ix2 (j 0) k)) = V c main_v46 (ix2 ((((cfg1.win 3).blk t).view.emb j) 0) k)
      refine congrArg (V c main_v46) ?_
      funext a; apply Fin.ext
      match a with
      | ⟨0, _⟩ => show win1_0.index t (0 : Fin 2) * 2000 + 1 * (j 0).val = win1_3.index t (0 : Fin 2) * 2000 + 1 * (j 0).val; omega
      | ⟨1, _⟩ => show win1_0.index t (1 : Fin 2) * 64 + 1 * k.val = k.val; omega
    · show V c main_v47 (((cfg1.win 1).blk t).view.emb (ix2 (0 : Fin 1) k)) = V c main_v47 (ix2 (0 : Fin 1) k)
      refine congrArg (V c main_v47) ?_
      funext a; apply Fin.ext
      match a with
      | ⟨0, _⟩ => show win1_1.index t (0 : Fin 2) * 1 + 1 * 0 = 0; omega
      | ⟨1, _⟩ => show win1_1.index t (1 : Fin 2) * 64 + 1 * k.val = k.val; omega
  · show V c main_arg4 (((cfg1.win 2).blk t).view.emb (ix2 k (j 1))) = V c main_arg4 (ix2 k ((((cfg1.win 3).blk t).view.emb j) 1))
    refine congrArg (V c main_arg4) ?_
    funext a; apply Fin.ext
    match a with
    | ⟨0, _⟩ => show win1_2.index t (0 : Fin 2) * 64 + 1 * k.val = k.val; omega
    | ⟨1, _⟩ => show win1_2.index t (1 : Fin 2) * 16 + 1 * (j 1).val = win1_3.index t (1 : Fin 2) * 16 + 1 * (j 1).val; omega

/-- An index of the output array is in point t's block iff each coordinate is in the block's range on its axis. -/
theorem mem_block (t : Fin cfg1.N) (i : S50000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v48).slice (win1_3.rect t)).set ↔ _
  rw [View.set_slice_whole, Rect.mem_set_unit]
  exact Iff.rfl

/-- The 25 row blocks cover the output: row r is in block r / 2000. -/
theorem covered (i : S50000x16.Idx) :
    ∃ t : Fin cfg1.N, (cfg1.win 3).flush t = true ∧ i ∈ ((cfg1.win 3).blk t).view.set := by
  have hi0 : (i 0).val < 50000 := (i 0).isLt
  have hi1 : (i 1).val < 16 := (i 1).isLt
  obtain ⟨t, ht⟩ := block_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 16 ≤ (i 1).val ∧ (i 1).val < win1_3.index t (1 : Fin 2) * 16 + 16; omega

/-- After the region the output array is the rectified sum of the aggregate and the bias row, times the weights, of
    the arrays as the region found them. -/
theorem array (c : Dev nD) :
    (dat1 V c).arrAt 3 cfg1.N = prod (biasReluRow (V c main_v46) (V c main_v47)) (V c main_arg4) :=
  (dat1 V c).arrAt_eq_of_cover 3 _ (fun t _ => flushed V c t) covered

end Cert.KernelIdeal.Region1

end
-- ==== Proof.Region2.lean ====
/-
  The third pallas_call, on the whole array.

  The grid has one point: it reads the whole [6250, 128] matrix and the whole one-row [1, 128] matrix and writes
  the whole [6250, 128] output, the row added along every row of the matrix. Stated for any contents `V` of the
  buffers at the region's entry.
-/
import proofs.«181336_j1709396984302_2_alg».proof.Proof.Gen.KernelIdeal.Frame
import proofs.«181336_j1709396984302_2_alg».proof.Proof.LibDenseSteps
import Idealize.ShloMosaic.Lib.Pipeline.Value

set_option maxRecDepth 16384

noncomputable section

namespace Cert.KernelIdeal.Region2

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body stores the row added along the rows of the matrix. -/
theorem payload (x0 : Vec Ideal S6250x128 .f32) (x1 : Vec Ideal S1x128 .f32) : k2_pay1 x0 x1 = addRowRow x0 x1 :=
  kernel_addRow x0 x1 shapeCasts_S6250x128_S6250x128 shapeCasts_S1x128_S1x128 broadcasts_S1x128_S6250x128

/-- Every block index is 0 at the one point. -/
theorem block_indices : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0 :=
  (by decide +kernel : ∀ t : Fin grid2.N, _)

theorem a_point : ∃ t : Fin cfg2.N, win2_2.index t = ![0, 0] :=
  (by decide +kernel : ∃ t : Fin grid2.N, win2_2.index t = ![0, 0])

/-- What the one point writes back is the whole sum. -/
theorem flushed (c : Dev nD) (t : Fin cfg2.N) :
    (dat2 V c).flushed 2 t = ((cfg2.win 2).blk t).view.read (Elt Ideal) (addRowRow (V c main_v63) (V c main_v67)) := by
  show (cfg2.win 2).cut (grid2.coords t) ((dat2 V c).after 2 t) = _
  rw [after2_2]
  unfold out2_2
  rw [View.canon_unit_zero zero_offsets]
  simp only [View.ld_unit_zero (S := S6250x128) zero_offsets, View.ld_unit_zero (S := S1x128) zero_offsets]
  rw [payload]
  obtain ⟨e0, e1, e2, e3, e4, e5⟩ := block_indices t
  funext j
  show addRowRow (iblk2 V c 0 t) (iblk2 V c 1 t) j = addRowRow (V c main_v63) (V c main_v67) (((cfg2.win 2).blk t).view.emb j)
  refine addRowRow_congr _ _ _ _ j (((cfg2.win 2).blk t).view.emb j) ?_ ?_
  · show V c main_v63 (((cfg2.win 0).blk t).view.emb j) = V c main_v63 (((cfg2.win 2).blk t).view.emb j)
    refine congrArg (V c main_v63) ?_
    funext a; apply Fin.ext
    match a with
    | ⟨0, _⟩ => show win2_0.index t (0 : Fin 2) * 6250 + 1 * (j 0).val = win2_2.index t (0 : Fin 2) * 6250 + 1 * (j 0).val; omega
    | ⟨1, _⟩ => show win2_0.index t (1 : Fin 2) * 128 + 1 * (j 1).val = win2_2.index t (1 : Fin 2) * 128 + 1 * (j 1).val; omega
  · show V c main_v67 (((cfg2.win 1).blk t).view.emb (ix2 (0 : Fin 1) (j 1))) = V c main_v67 (ix2 (0 : Fin 1) ((((cfg2.win 2).blk t).view.emb j) 1))
    refine congrArg (V c main_v67) ?_
    funext a; apply Fin.ext
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_block (t : Fin cfg2.N) (i : S6250x128.Idx) :
    i ∈ ((cfg2.win 2).blk t).view.set ↔ ∀ a : Fin 2, win2_2.index t a * S6250x128.size a ≤ (i a).val ∧ (i a).val < win2_2.index t a * S6250x128.size a + S6250x128.size a := by
  show i ∈ ((View.whole main_v68).slice (win2_2.rect t)).set ↔ _
  rw [View.set_slice_whole, Rect.mem_set_unit]
  exact Iff.rfl

/-- The one block is the whole output. -/
theorem covered (i : S6250x128.Idx) :
    ∃ t : Fin cfg2.N, (cfg2.win 2).flush t = true ∧ i ∈ ((cfg2.win 2).blk t).view.set := by
  have hi0 : (i 0).val < 6250 := (i 0).isLt
  have hi1 : (i 1).val < 128 := (i 1).isLt
  obtain ⟨t, ht⟩ := a_point
  have q0 : win2_2.index t (0 : Fin 2) = 0 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 6250 ≤ (i 0).val ∧ (i 0).val < win2_2.index t (0 : Fin 2) * 6250 + 6250; omega
  | ⟨1, _⟩ => show win2_2.index t (1 : Fin 2) * 128 ≤ (i 1).val ∧ (i 1).val < win2_2.index t (1 : Fin 2) * 128 + 128; omega

/-- After the region the output array is the row added along the rows of the matrix, of the arrays as the region
    found them. -/
theorem array (c : Dev nD) : (dat2 V c).arrAt 2 cfg2.N = addRowRow (V c main_v63) (V c main_v67) :=
  (dat2 V c).arrAt_eq_of_cover 2 _ (fun t _ => flushed V c t) covered

end Cert.KernelIdeal.Region2

end
-- ==== Proof.Graph.lean ====
/-
  The graph side of a two-layer graph convolution, as the host operations both programs share.

  From the [2, 800000] array of edge endpoints: `src` and `dst` are its two rows, each followed by the self loops
  0 … 49999. `degree d` scatter-adds a one per edge into the 50000 nodes by target; `dinv d` is its reciprocal
  square root (of the degree raised to at least 1e-12) where the degree is positive and zero elsewhere; `norm s d`
  is, per edge, the product of `dinv` at its source and at its target (indices below zero wrapped by 50000, as the
  host program spells a gather). `aggregate64 s d ν h` gathers the rows of a [50000, 64] matrix h by source, scales
  row e by ν(e) and scatter-adds the rows by target into a zero [50000, 64] matrix; `aggregate16` is the same on 16
  columns. These are kept as whole-array operations and never opened: the two programs apply the same ones.
-/
import proofs.«181336_j1709396984302_2_alg».proof.Proof.Gen.ReferenceIdeal
import Idealize.ShloMosaic.PureOps.Ideal

noncomputable section

namespace Cert.Graph

open Cert.ReferenceIdeal Cert.ReferenceIdeal.Gen Idealize.ShloMosaic

/-- Row 0 of the edge array, then the self loops. -/
def src (E : (⟨S2x800000, .i32⟩ : BufTy).Contents (Elt Ideal)) : (⟨S850000, .i32⟩ : BufTy).Contents (Elt Ideal) :=
  concatenate S850000 0 [⟨S800000, shapeCast _ (extractStridedSlice S1x800000 ![0, 0] E slices_S2x800000_S1x800000_0_0) shapeCasts_S1x800000_S800000⟩, ⟨S50000, iotaInDim S50000 32 0⟩] concatenates_S800000_S50000_S850000_d0

/-- Row 1 of the edge array, then the self loops. -/
def dst (E : (⟨S2x800000, .i32⟩ : BufTy).Contents (Elt Ideal)) : (⟨S850000, .i32⟩ : BufTy).Contents (Elt Ideal) :=
  concatenate S850000 0 [⟨S800000, shapeCast _ (extractStridedSlice S1x800000 ![1, 0] E slices_S2x800000_S1x800000_1_0) shapeCasts_S1x800000_S800000⟩, ⟨S50000, iotaInDim S50000 32 0⟩] concatenates_S800000_S50000_S850000_d0

/-- An index vector as the one-column matrix a scatter takes. -/
def column (d : (⟨S850000, .i32⟩ : BufTy).Contents (Elt Ideal)) : (⟨S850000x1, .i32⟩ : BufTy).Contents (Elt Ideal) :=
  broadcastInDim S850000x1 ![0] bcast_S850000_S850000x1_0 d

/-- An index vector as the one-column matrix of start indices a gather takes: an index below zero has 50000 added. -/
def starts (s : (⟨S850000, .i32⟩ : BufTy).Contents (Elt Ideal)) : (⟨S850000x1, .i32⟩ : BufTy).Contents (Elt Ideal) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The number of edges into each node, self loop included. -/
def degree (d : (⟨S850000, .i32⟩ : BufTy).Contents (Elt Ideal)) : FVec Ideal S50000 .f32 :=
  Host.scatterAdd (F := Ideal) scatter_S50000_S850000x1_S850000_n_0_0_1 (broadcastInDim S50000 ![] bcast_S_S50000 (constant (F := Ideal) S_ .f32 0x00000000#32))
    (column d) (broadcastInDim S850000 ![] bcast_S_S850000 (constant (F := Ideal) S_ .f32 0x3F800000#32))

/-- Where the degree is positive. -/
def positive (d : (⟨S850000, .i32⟩ : BufTy).Contents (Elt Ideal)) : (⟨S50000, .i1⟩ : BufTy).Contents (Elt Ideal) :=
  cmpf (F := Ideal) .ogt (degree d) (broadcastInDim S50000 ![] bcast_S_S50000 (constant (F := Ideal) S_ .f32 0x00000000#32))

/-- The reciprocal square root of the degree raised to at least 1e-12. -/
def rsqrtDeg (d : (⟨S850000, .i32⟩ : BufTy).Contents (Elt Ideal)) : FVec Ideal S50000 .f32 :=
  Host.rsqrt (F := Ideal) (maximumf (degree d) (broadcastInDim S50000 ![] bcast_S_S50000 (constant (F := Ideal) S_ .f32 0x2B8CBCCC#32)))

/-- A vector r where a mask holds and the scalar z elsewhere. -/
def dinvOf (mask : (⟨S50000, .i1⟩ : BufTy).Contents (Elt Ideal)) (r : FVec Ideal S50000 .f32) (z : FVec Ideal S_ .f32) :
    FVec Ideal S50000 .f32 :=
  select mask r (broadcastInDim S50000 ![] bcast_S_S50000 (id z))

/-- degree^(-1/2) where the degree is positive, zero elsewhere. -/
def dinv (d : (⟨S850000, .i32⟩ : BufTy).Contents (Elt Ideal)) : FVec Ideal S50000 .f32 :=
  dinvOf (positive d) (rsqrtDeg d) (constant (F := Ideal) S_ .f32 0x00000000#32)

/-- Per edge, a per-node factor δ at its source times δ at its target. -/
def normOf (δ : FVec Ideal S50000 .f32) (s d : (⟨S850000, .i32⟩ : BufTy).Contents (Elt Ideal)) : FVec Ideal S850000 .f32 :=
  mulf (Host.gather gather_S50000_S850000x1_S850000_n_0_n_n_0_1_1 δ (starts s))
    (Host.gather gather_S50000_S850000x1_S850000_n_0_n_n_0_1_1 δ (starts d))

/-- Per edge, dinv at its source times dinv at its target. -/
def norm (s d : (⟨S850000, .i32⟩ : BufTy).Contents (Elt Ideal)) : FVec Ideal S850000 .f32 :=
  normOf (dinv d) s d

/-- Rows of h gathered by source, scaled per edge, and summed by target (64 columns). -/
def aggregate64 (s d : (⟨S850000, .i32⟩ : BufTy).Contents (Elt Ideal)) (ν : FVec Ideal S850000 .f32)
    (h : FVec Ideal S50000x64 .f32) : FVec Ideal S50000x64 .f32 :=
  Host.scatterAdd (F := Ideal) scatter_S50000x64_S850000x1_S850000x64_1_0_0_1 (broadcastInDim S50000x64 ![] bcast_S_S50000x64 (constant (F := Ideal) S_ .f32 0x00000000#32))
    (column d)
    (mulf (Host.gather gather_S50000x64_S850000x1_S850000x64_1_0_n_n_0_1_164 h (starts s))
      (broadcastInDim S850000x64 ![0, 1] bcast_S850000x1_S850000x64_0_1 (broadcastInDim S850000x1 ![0] bcast_S850000_S850000x1_0 ν)))

/-- Rows of h gathered by source, scaled per edge, and summed by target (16 columns). -/
def aggregate16 (s d : (⟨S850000, .i32⟩ : BufTy).Contents (Elt Ideal)) (ν : FVec Ideal S850000 .f32)
    (h : FVec Ideal S50000x16 .f32) : FVec Ideal S50000x16 .f32 :=
  Host.scatterAdd (F := Ideal) scatter_S50000x16_S850000x1_S850000x16_1_0_0_1 (broadcastInDim S50000x16 ![] bcast_S_S50000x16 (constant (F := Ideal) S_ .f32 0x00000000#32))
    (column d)
    (mulf (Host.gather gather_S50000x16_S850000x1_S850000x16_1_0_n_n_0_1_116 h (starts s))
      (broadcastInDim S850000x16 ![0, 1] bcast_S850000x1_S850000x16_0_1 (broadcastInDim S850000x1 ![0] bcast_S850000_S850000x1_0 ν)))

end Cert.Graph

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.Stretches.lean ====
/-
  The idealized kernel's host operations between its pallas_calls, read stretch by stretch.

  For ANY contents U of the buffers before a stretch, the buffers a later pallas_call or the result reads are:
    * after the first three stretches: the edge sources and targets with self loops, and the edges' normalisation
      — the shared graph operations of the [2, 800000] edge array;
    * after the stretch between the first two pallas_calls: the first product's rows gathered by source, scaled and
      summed by target (`aggregate64`; the stored product's shorter float format is widened again, the identity on
      the extended reals), and the first bias seen as a one-row matrix;
    * after the stretch between the last two pallas_calls: the same aggregation on 16 columns viewed as [6250, 128],
      and the second bias repeated 8 times and seen as a one-row [1, 128] matrix;
    * after the last stretch: the last pallas_call's [6250, 128] output viewed as [50000, 16].
-/
import proofs.«181336_j1709396984302_2_alg».proof.Proof.Gen.KernelIdeal.Launch
import proofs.«181336_j1709396984302_2_alg».proof.Proof.Graph
import proofs.«181336_j1709396984302_2_alg».proof.Proof.LibAfterStages
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable (U : Valuation τ sig (Elt Ideal))

/-! ## Before the first pallas_call: the graph

The first stretch makes the sources, the targets, the positivity mask of the degrees, their reciprocal square roots
and a zero; the second (an outlined selection) makes the per-node factors from the last three; the third makes the
edges' normalisation from the factors, the sources and the targets. -/

set_option maxHeartbeats 40000000 in
theorem first_sources : after hostOps0 U (Proc.devRef .tc main_v5) = Cert.Graph.src (U (Proc.devRef .tc main_arg1)) := by
  simp only [hostOps0]
  after_results_simp
  rfl

set_option maxHeartbeats 40000000 in
theorem first_targets : after hostOps0 U (Proc.devRef .tc main_v6) = Cert.Graph.dst (U (Proc.devRef .tc main_arg1)) := by
  simp only [hostOps0]
  after_results_simp
  rfl

set_option maxHeartbeats 40000000 in
theorem first_positive :
    after hostOps0 U (Proc.devRef .tc main_v12) = Cert.Graph.positive (Cert.Graph.dst (U (Proc.devRef .tc main_arg1))) := by
  simp only [hostOps0]
  after_results_simp
  rfl

set_option maxHeartbeats 40000000 in
theorem first_rsqrt :
    after hostOps0 U (Proc.devRef .tc main_v15) = Cert.Graph.rsqrtDeg (Cert.Graph.dst (U (Proc.devRef .tc main_arg1))) := by
  simp only [hostOps0]
  after_results_simp
  rfl

set_option maxHeartbeats 40000000 in
theorem first_zero : after hostOps0 U (Proc.devRef .tc main_cst_3) = constant (F := Ideal) S_ .f32 0x00000000#32 := by
  simp only [hostOps0]
  after_results_simp

set_option maxHeartbeats 40000000 in
theorem second_factors :
    after hostOps0_1 U (Proc.devRef .tc main_v16)
      = Cert.Graph.dinvOf (U (Proc.devRef .tc main_v12)) (U (Proc.devRef .tc main_v15)) (U (Proc.devRef .tc main_cst_3)) := by
  simp only [hostOps0_1]
  after_results_simp
  rfl

set_option maxHeartbeats 40000000 in
theorem third_normalisation :
    after hostOps0_2 U (Proc.devRef .tc main_v31)
      = Cert.Graph.normOf (U (Proc.devRef .tc main_v16)) (U (Proc.devRef .tc main_v5)) (U (Proc.devRef .tc main_v6)) := by
  simp only [hostOps0_2]
  after_results_simp
  rfl

theorem sources :
    after hostOps0_2 (after hostOps0_1 (after hostOps0 U)) (Proc.devRef .tc main_v5)
      = Cert.Graph.src (U (Proc.devRef .tc main_arg1)) :=
  calc after hostOps0_2 (after hostOps0_1 (after hostOps0 U)) (Proc.devRef .tc main_v5)
    _ = after hostOps0_1 (after hostOps0 U) (Proc.devRef .tc main_v5) := by kept_through [hostOps0_2]
    _ = after hostOps0 U (Proc.devRef .tc main_v5) := by kept_through [hostOps0_1]
    _ = _ := first_sources U

theorem targets :
    after hostOps0_2 (after hostOps0_1 (after hostOps0 U)) (Proc.devRef .tc main_v6)
      = Cert.Graph.dst (U (Proc.devRef .tc main_arg1)) :=
  calc after hostOps0_2 (after hostOps0_1 (after hostOps0 U)) (Proc.devRef .tc main_v6)
    _ = after hostOps0_1 (after hostOps0 U) (Proc.devRef .tc main_v6) := by kept_through [hostOps0_2]
    _ = after hostOps0 U (Proc.devRef .tc main_v6) := by kept_through [hostOps0_1]
    _ = _ := first_targets U

theorem normalisation :
    after hostOps0_2 (after hostOps0_1 (after hostOps0 U)) (Proc.devRef .tc main_v31)
      = Cert.Graph.norm (Cert.Graph.src (U (Proc.devRef .tc main_arg1))) (Cert.Graph.dst (U (Proc.devRef .tc main_arg1))) := by
  have k5 : after hostOps0_1 (after hostOps0 U) (Proc.devRef .tc main_v5) = after hostOps0 U (Proc.devRef .tc main_v5) := by
    kept_through [hostOps0_1]
  have k6 : after hostOps0_1 (after hostOps0 U) (Proc.devRef .tc main_v6) = after hostOps0 U (Proc.devRef .tc main_v6) := by
    kept_through [hostOps0_1]
  rw [third_normalisation, second_factors, k5, k6, first_sources, first_targets, first_positive, first_rsqrt, first_zero]
  rfl

/-! ## Between the first two pallas_calls -/

set_option maxHeartbeats 40000000 in
theorem aggregate1 :
    after hostOps1 U (Proc.devRef .tc main_v46)
      = Cert.Graph.aggregate64 (U (Proc.devRef .tc main_v5)) (U (Proc.devRef .tc main_v6)) (U (Proc.devRef .tc main_v31))
          (U (Proc.devRef .tc main_v32)) := by
  simp only [hostOps1]
  after_results_simp
  rfl

set_option maxHeartbeats 40000000 in
theorem bias1_row :
    after hostOps1 U (Proc.devRef .tc main_v47) = shapeCast S1x64 (U (Proc.devRef .tc main_arg3)) shapeCasts_S64_S1x64 := by
  simp only [hostOps1]
  after_results_simp
  rfl

/-! ## Between the last two pallas_calls -/

set_option maxHeartbeats 40000000 in
theorem aggregate2_view :
    after hostOps2 U (Proc.devRef .tc main_v63)
      = shapeCast S6250x128
          (Cert.Graph.aggregate16 (U (Proc.devRef .tc main_v5)) (U (Proc.devRef .tc main_v6)) (U (Proc.devRef .tc main_v31))
            (U (Proc.devRef .tc main_v48)))
          shapeCasts_S50000x16_S6250x128 := by
  simp only [hostOps2]
  after_results_simp
  rfl

set_option maxHeartbeats 40000000 in
theorem bias2_tiled :
    after hostOps2 U (Proc.devRef .tc main_v67)
      = shapeCast S1x128 (shapeCast S128 (broadcastInDim S8x16 ![0, 1] bcast_S1x16_S8x16_0_1
          (shapeCast S1x16 (U (Proc.devRef .tc main_arg5)) shapeCasts_S16_S1x16)) shapeCasts_S8x16_S128) shapeCasts_S128_S1x128 := by
  simp only [hostOps2]
  after_results_simp
  rfl

/-! ## After the last pallas_call -/

set_option maxHeartbeats 40000000 in
theorem result_view :
    after hostOps3 U (Proc.devRef .tc main_v69)
      = shapeCast S50000x16 (U (Proc.devRef .tc main_v68)) shapeCasts_S6250x128_S50000x16 := by
  simp only [hostOps3]
  after_results_simp
  rfl

end Cert.KernelIdeal.Stretches

end
-- ==== Proof.Network.lean ====
/-
  The two-layer graph convolution as ONE function of its six arguments.

  With s, d the edge sources and targets (self loops added) and ν the symmetric normalisation of the edges:
    layer 1   h1 = max (A (x W1) + b1, 0)     where A sums ν(e) * row s(e) into row d(e),
    layer 2   out = A (h1 W2) + b2.
  The dense steps are entry-by-entry functions (`prod`, `biasRelu`, `addRow`); the aggregation A is the shared host
  operations (`aggregate64`, `aggregate16`), kept whole.
-/
import proofs.«181336_j1709396984302_2_alg».proof.Proof.Graph
import proofs.«181336_j1709396984302_2_alg».proof.Proof.LibDenseSteps

noncomputable section

namespace Cert.Network

open Cert.ReferenceIdeal Idealize.ShloMosaic Cert.Graph Cert.Layers

/-- The network's result from the node features X, the edge array E, and the two layers' weights and biases. -/
def gcn (X : FVec Ideal S50000x128 .f32) (E : (⟨S2x800000, .i32⟩ : BufTy).Contents (Elt Ideal))
    (W1 : FVec Ideal S128x64 .f32) (b1 : FVec Ideal S64 .f32) (W2 : FVec Ideal S64x16 .f32) (b2 : FVec Ideal S16 .f32) :
    FVec Ideal S50000x16 .f32 :=
  addRow (aggregate16 (src E) (dst E) (norm (src E) (dst E))
    (prod (biasRelu (aggregate64 (src E) (dst E) (norm (src E) (dst E)) (prod X W1)) b1) W2)) b2

end Cert.Network

end
-- ==== Proof.LaneDense.lean ====
/-
  A bias added through a lane-dense view.

  A [50000, 16] matrix g and a [6250, 128] matrix hold the same 800000 numbers in the same row-major order:
  entry (p, e) of the first is entry (q, l) of the second with 128 q + l = 16 p + e. A length-16 vector β repeated
  8 times is a length-128 vector whose entry l is β(l mod 16), and l mod 16 = (16 p + e) mod 16 = e. So adding the
  tiled vector along the rows of the [6250, 128] view and viewing the sum as [50000, 16] again is adding β along
  the rows of g.
-/
import Idealize.ShloMosaic.Lib.ValueIdx
import Idealize.ShloMosaic.Lib.ValueLayout
import Idealize.ShloMosaic.Lib.Pipeline.Value
import proofs.«181336_j1709396984302_2_alg».proof.Proof.LibDenseSteps

noncomputable section

namespace Cert.LaneDense

open Idealize.ShloMosaic Idealize.ShloMosaic.ValueIdx Cert.Layers

/-- The vector repeated 8 times and seen as a one-row matrix reads β(l mod 16) at (0, l). -/
theorem tiled_apply (β : (⟨1, ![16]⟩ : Shape).Idx → EReal)
    (h2 : (⟨1, ![16]⟩ : Shape).ShapeCasts ⟨2, ![1, 16]⟩)
    (h3 : (⟨2, ![1, 16]⟩ : Shape).BroadcastsInDim ⟨2, ![8, 16]⟩ ![0, 1])
    (h4 : (⟨2, ![8, 16]⟩ : Shape).ShapeCasts ⟨1, ![128]⟩)
    (h5 : (⟨1, ![128]⟩ : Shape).ShapeCasts ⟨2, ![1, 128]⟩) (l : Fin 128) (e : Fin 16) (he : l.val % 16 = e.val) :
    shapeCast ⟨2, ![1, 128]⟩ (shapeCast ⟨1, ![128]⟩ (broadcastInDim ⟨2, ![8, 16]⟩ ![0, 1] h3 (shapeCast ⟨2, ![1, 16]⟩ β h2)) h4) h5
        (ix2 (0 : Fin 1) l) = β (ix1 e) := by
  rw [shapeCast_a_1a_apply]
  have hl := l.isLt
  rw [shapeCast_apply _ h4 (ix1 l) (ix2 (⟨l.val / 16, by omega⟩ : Fin 8) e) (by
    rw [Shape.rowMajor_val_two, Shape.rowMajor_val_one]
    show l.val / 16 * 16 + e.val = l.val
    omega)]
  rw [broadcastInDim_apply ![0, 1] h3 _ (ix2 (⟨l.val / 16, by omega⟩ : Fin 8) e) (ix2 (0 : Fin 1) e) (fun ax => by
    match ax with
    | ⟨0, _⟩ => rfl
    | ⟨1, _⟩ => rfl)]
  exact shapeCast_a_1a_apply β h2 (0 : Fin 1) e

/-- Adding the tiled vector along the rows of the lane-dense view is adding the vector along the rows. -/
theorem add_through_view (g : (⟨2, ![50000, 16]⟩ : Shape).Idx → EReal) (β : (⟨1, ![16]⟩ : Shape).Idx → EReal)
    (h1 : (⟨2, ![50000, 16]⟩ : Shape).ShapeCasts ⟨2, ![6250, 128]⟩)
    (h2 : (⟨1, ![16]⟩ : Shape).ShapeCasts ⟨2, ![1, 16]⟩)
    (h3 : (⟨2, ![1, 16]⟩ : Shape).BroadcastsInDim ⟨2, ![8, 16]⟩ ![0, 1])
    (h4 : (⟨2, ![8, 16]⟩ : Shape).ShapeCasts ⟨1, ![128]⟩)
    (h5 : (⟨1, ![128]⟩ : Shape).ShapeCasts ⟨2, ![1, 128]⟩)
    (h6 : (⟨2, ![6250, 128]⟩ : Shape).ShapeCasts ⟨2, ![50000, 16]⟩) :
    shapeCast ⟨2, ![50000, 16]⟩
        (addRowRow (shapeCast ⟨2, ![6250, 128]⟩ g h1)
          (shapeCast ⟨2, ![1, 128]⟩ (shapeCast ⟨1, ![128]⟩ (broadcastInDim ⟨2, ![8, 16]⟩ ![0, 1] h3 (shapeCast ⟨2, ![1, 16]⟩ β h2)) h4) h5))
        h6
      = addRow g β := by
  funext i
  obtain ⟨p, e, rfl⟩ : ∃ (p : Fin 50000) (e : Fin 16), i = ix2 p e := ⟨i 0, i 1, eq_ix2 i⟩
  have hp := p.isLt
  have he := e.isLt
  rw [shapeCast_apply _ h6 (ix2 p e) (ix2 (⟨(p.val * 16 + e.val) / 128, by omega⟩ : Fin 6250) (⟨(p.val * 16 + e.val) % 128, by omega⟩ : Fin 128)) (by
    rw [Shape.rowMajor_val_two, Shape.rowMajor_val_two]
    show (p.val * 16 + e.val) / 128 * 128 + (p.val * 16 + e.val) % 128 = p.val * 16 + e.val
    omega)]
  show shapeCast ⟨2, ![6250, 128]⟩ g h1 (ix2 (⟨(p.val * 16 + e.val) / 128, _⟩ : Fin 6250) (⟨(p.val * 16 + e.val) % 128, _⟩ : Fin 128))
      + shapeCast ⟨2, ![1, 128]⟩ (shapeCast ⟨1, ![128]⟩ (broadcastInDim ⟨2, ![8, 16]⟩ ![0, 1] h3 (shapeCast ⟨2, ![1, 16]⟩ β h2)) h4) h5
          (ix2 (0 : Fin 1) (⟨(p.val * 16 + e.val) % 128, _⟩ : Fin 128))
    = g (ix2 p e) + β (ix1 e)
  rw [tiled_apply β h2 h3 h4 h5 _ e (by show (p.val * 16 + e.val) % 128 % 16 = e.val; omega)]
  rw [shapeCast_apply g h1 _ (ix2 p e) (by
    rw [Shape.rowMajor_val_two, Shape.rowMajor_val_two]
    show p.val * 16 + e.val = (p.val * 16 + e.val) / 128 * 128 + (p.val * 16 + e.val) % 128
    omega)]

end Cert.LaneDense

end
-- ==== Proof.KernelValue.lean ====
/-
  The idealized kernel computes the network function.

  The contents of the buffers at the nine segment boundaries of @main are a fold from the launch memory. Walking it:
  the graph arrays (sources, targets, normalisation) are made before the first pallas_call and no later segment
  writes them; the first pallas_call leaves the product x W1; the next stretch aggregates it; the second pallas_call
  leaves max (aggregate + b1, 0) W2; the next stretch aggregates that and views it as [6250, 128]; the third
  pallas_call adds the tiled bias along the rows; the last stretch views the sum as [50000, 16] again — which is the
  aggregate with b2 added along its rows, the network's result.
-/
import proofs.«181336_j1709396984302_2_alg».proof.Proof.Gen.KernelIdeal.Frame
import proofs.«181336_j1709396984302_2_alg».proof.Proof.Region0
import proofs.«181336_j1709396984302_2_alg».proof.Proof.Region1
import proofs.«181336_j1709396984302_2_alg».proof.Proof.Region2
import proofs.«181336_j1709396984302_2_alg».proof.Proof.Stretches
import proofs.«181336_j1709396984302_2_alg».proof.Proof.Network
import proofs.«181336_j1709396984302_2_alg».proof.Proof.LaneDense
import proofs.«181336_j1709396984302_2_alg».proof.Proof.LibAfterStages

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Cert.Layers

variable (m : (ℓ : Loc nD τ sig) → Buf (Elt Ideal) ℓ) (ρ : Dev nD → PrngReg) (c : Dev nD)

/-! ## The arguments and the graph arrays at the first pallas_call's entry -/

/-- Argument 0 reaches the first pallas_call as launched. -/
theorem entry_arg0 : W3 m ρ c (Proc.devRef .tc main_arg0) = m ((c : Thread nD τ).loc main_arg0) :=
  calc W3 m ρ c (Proc.devRef .tc main_arg0)
    _ = W2 m ρ c (Proc.devRef .tc main_arg0) := by show after hostOps0_2 (W2 m ρ c) _ = _; kept_through [hostOps0_2]
    _ = W1 m ρ c (Proc.devRef .tc main_arg0) := by show after hostOps0_1 (W1 m ρ c) _ = _; kept_through [hostOps0_1]
    _ = W0 m ρ c (Proc.devRef .tc main_arg0) := by show after hostOps0 (W0 m ρ c) _ = _; kept_through [hostOps0]
    _ = m ((c : Thread nD τ).loc main_arg0) := rfl

/-- Argument 2 reaches the first pallas_call as launched. -/
theorem entry_arg2 : W3 m ρ c (Proc.devRef .tc main_arg2) = m ((c : Thread nD τ).loc main_arg2) :=
  calc W3 m ρ c (Proc.devRef .tc main_arg2)
    _ = W2 m ρ c (Proc.devRef .tc main_arg2) := by show after hostOps0_2 (W2 m ρ c) _ = _; kept_through [hostOps0_2]
    _ = W1 m ρ c (Proc.devRef .tc main_arg2) := by show after hostOps0_1 (W1 m ρ c) _ = _; kept_through [hostOps0_1]
    _ = W0 m ρ c (Proc.devRef .tc main_arg2) := by show after hostOps0 (W0 m ρ c) _ = _; kept_through [hostOps0]
    _ = m ((c : Thread nD τ).loc main_arg2) := rfl

/-- Argument 3 reaches the first pallas_call as launched. -/
theorem entry_arg3 : W3 m ρ c (Proc.devRef .tc main_arg3) = m ((c : Thread nD τ).loc main_arg3) :=
  calc W3 m ρ c (Proc.devRef .tc main_arg3)
    _ = W2 m ρ c (Proc.devRef .tc main_arg3) := by show after hostOps0_2 (W2 m ρ c) _ = _; kept_through [hostOps0_2]
    _ = W1 m ρ c (Proc.devRef .tc main_arg3) := by show after hostOps0_1 (W1 m ρ c) _ = _; kept_through [hostOps0_1]
    _ = W0 m ρ c (Proc.devRef .tc main_arg3) := by show after hostOps0 (W0 m ρ c) _ = _; kept_through [hostOps0]
    _ = m ((c : Thread nD τ).loc main_arg3) := rfl

/-- Argument 4 reaches the first pallas_call as launched. -/
theorem entry_arg4 : W3 m ρ c (Proc.devRef .tc main_arg4) = m ((c : Thread nD τ).loc main_arg4) :=
  calc W3 m ρ c (Proc.devRef .tc main_arg4)
    _ = W2 m ρ c (Proc.devRef .tc main_arg4) := by show after hostOps0_2 (W2 m ρ c) _ = _; kept_through [hostOps0_2]
    _ = W1 m ρ c (Proc.devRef .tc main_arg4) := by show after hostOps0_1 (W1 m ρ c) _ = _; kept_through [hostOps0_1]
    _ = W0 m ρ c (Proc.devRef .tc main_arg4) := by show after hostOps0 (W0 m ρ c) _ = _; kept_through [hostOps0]
    _ = m ((c : Thread nD τ).loc main_arg4) := rfl

/-- Argument 5 reaches the first pallas_call as launched. -/
theorem entry_arg5 : W3 m ρ c (Proc.devRef .tc main_arg5) = m ((c : Thread nD τ).loc main_arg5) :=
  calc W3 m ρ c (Proc.devRef .tc main_arg5)
    _ = W2 m ρ c (Proc.devRef .tc main_arg5) := by show after hostOps0_2 (W2 m ρ c) _ = _; kept_through [hostOps0_2]
    _ = W1 m ρ c (Proc.devRef .tc main_arg5) := by show after hostOps0_1 (W1 m ρ c) _ = _; kept_through [hostOps0_1]
    _ = W0 m ρ c (Proc.devRef .tc main_arg5) := by show after hostOps0 (W0 m ρ c) _ = _; kept_through [hostOps0]
    _ = m ((c : Thread nD τ).loc main_arg5) := rfl

theorem entry_sources : W3 m ρ c (Proc.devRef .tc main_v5) = Cert.Graph.src (m ((c : Thread nD τ).loc main_arg1)) :=
  Stretches.sources (W0 m ρ c)

theorem entry_targets : W3 m ρ c (Proc.devRef .tc main_v6) = Cert.Graph.dst (m ((c : Thread nD τ).loc main_arg1)) :=
  Stretches.targets (W0 m ρ c)

theorem entry_normalisation : W3 m ρ c (Proc.devRef .tc main_v31)
    = Cert.Graph.norm (Cert.Graph.src (m ((c : Thread nD τ).loc main_arg1))) (Cert.Graph.dst (m ((c : Thread nD τ).loc main_arg1))) :=
  Stretches.normalisation (W0 m ρ c)

/-! ## The first pallas_call and the aggregation after it -/

/-- The first pallas_call leaves the product of the features with the first weights. -/
theorem product1 : W4 m ρ c (Proc.devRef .tc main_v32)
    = prod (m ((c : Thread nD τ).loc main_arg0)) (m ((c : Thread nD τ).loc main_arg2)) := by
  have h := (W4_arr m ρ c 2).trans (Region0.array (V3 m ρ) c)
  rw [show V3 m ρ c main_arg0 = m ((c : Thread nD τ).loc main_arg0) from entry_arg0 m ρ c,
    show V3 m ρ c main_arg2 = m ((c : Thread nD τ).loc main_arg2) from entry_arg2 m ρ c] at h
  exact h

/-- The second pallas_call finds the first layer's aggregate, -/
theorem aggregate1 : W5 m ρ c (Proc.devRef .tc main_v46)
    = Cert.Graph.aggregate64 (Cert.Graph.src (m ((c : Thread nD τ).loc main_arg1))) (Cert.Graph.dst (m ((c : Thread nD τ).loc main_arg1)))
        (Cert.Graph.norm (Cert.Graph.src (m ((c : Thread nD τ).loc main_arg1))) (Cert.Graph.dst (m ((c : Thread nD τ).loc main_arg1))))
        (prod (m ((c : Thread nD τ).loc main_arg0)) (m ((c : Thread nD τ).loc main_arg2))) := by
  show after hostOps1 (W4 m ρ c) (Proc.devRef .tc main_v46) = _
  rw [Stretches.aggregate1, W4_of_ne m ρ c main_v5 (by decide), W4_of_ne m ρ c main_v6 (by decide),
    W4_of_ne m ρ c main_v31 (by decide), product1, entry_sources, entry_targets, entry_normalisation]

/-- the first bias as a one-row matrix, -/
theorem bias1 : W5 m ρ c (Proc.devRef .tc main_v47)
    = shapeCast S1x64 (m ((c : Thread nD τ).loc main_arg3)) shapeCasts_S64_S1x64 := by
  show after hostOps1 (W4 m ρ c) (Proc.devRef .tc main_v47) = _
  rw [Stretches.bias1_row, W4_of_ne m ρ c main_arg3 (by decide), entry_arg3]

/-- and the second weights as launched. -/
theorem weights2 : W5 m ρ c (Proc.devRef .tc main_arg4) = m ((c : Thread nD τ).loc main_arg4) :=
  calc W5 m ρ c (Proc.devRef .tc main_arg4)
    _ = W4 m ρ c (Proc.devRef .tc main_arg4) := by show after hostOps1 (W4 m ρ c) _ = _; kept_through [hostOps1]
    _ = W3 m ρ c (Proc.devRef .tc main_arg4) := W4_of_ne m ρ c main_arg4 (by decide)
    _ = m ((c : Thread nD τ).loc main_arg4) := entry_arg4 m ρ c

/-! ## The second pallas_call and the aggregation after it -/

/-- The second pallas_call leaves the rectified first layer times the second weights. -/
theorem product2 : W6 m ρ c (Proc.devRef .tc main_v48)
    = prod (biasRelu
        (Cert.Graph.aggregate64 (Cert.Graph.src (m ((c : Thread nD τ).loc main_arg1))) (Cert.Graph.dst (m ((c : Thread nD τ).loc main_arg1)))
          (Cert.Graph.norm (Cert.Graph.src (m ((c : Thread nD τ).loc main_arg1))) (Cert.Graph.dst (m ((c : Thread nD τ).loc main_arg1))))
          (prod (m ((c : Thread nD τ).loc main_arg0)) (m ((c : Thread nD τ).loc main_arg2))))
        (m ((c : Thread nD τ).loc main_arg3)))
      (m ((c : Thread nD τ).loc main_arg4)) := by
  have h := (W6_arr m ρ c 3).trans (Region1.array (V5 m ρ) c)
  rw [show V5 m ρ c main_v46 = _ from aggregate1 m ρ c, show V5 m ρ c main_v47 = _ from bias1 m ρ c,
    show V5 m ρ c main_arg4 = _ from weights2 m ρ c, biasReluRow_row] at h
  exact h

/-- A buffer that neither the first two pallas_calls nor the stretch between them write reaches the third stretch
    as it was at the first pallas_call's entry. -/
theorem carried (b : Ref sig .tc) (h0 : ∀ w, Pipeline.arrRef spec0 w ≠ b) (h1 : ∀ w, Pipeline.arrRef spec1 w ≠ b)
    (hk : after hostOps1 (W4 m ρ c) (Proc.devRef .tc b) = W4 m ρ c (Proc.devRef .tc b)) :
    W6 m ρ c (Proc.devRef .tc b) = W3 m ρ c (Proc.devRef .tc b) :=
  (W6_of_ne m ρ c b h1).trans (hk.trans (W4_of_ne m ρ c b h0))

/-- The third pallas_call finds the second layer's aggregate viewed as [6250, 128], -/
theorem aggregate2 : W7 m ρ c (Proc.devRef .tc main_v63)
    = shapeCast S6250x128
        (Cert.Graph.aggregate16 (Cert.Graph.src (m ((c : Thread nD τ).loc main_arg1))) (Cert.Graph.dst (m ((c : Thread nD τ).loc main_arg1)))
          (Cert.Graph.norm (Cert.Graph.src (m ((c : Thread nD τ).loc main_arg1))) (Cert.Graph.dst (m ((c : Thread nD τ).loc main_arg1))))
          (prod (biasRelu
              (Cert.Graph.aggregate64 (Cert.Graph.src (m ((c : Thread nD τ).loc main_arg1))) (Cert.Graph.dst (m ((c : Thread nD τ).loc main_arg1)))
                (Cert.Graph.norm (Cert.Graph.src (m ((c : Thread nD τ).loc main_arg1))) (Cert.Graph.dst (m ((c : Thread nD τ).loc main_arg1))))
                (prod (m ((c : Thread nD τ).loc main_arg0)) (m ((c : Thread nD τ).loc main_arg2))))
              (m ((c : Thread nD τ).loc main_arg3)))
            (m ((c : Thread nD τ).loc main_arg4))))
        shapeCasts_S50000x16_S6250x128 := by
  show after hostOps2 (W6 m ρ c) (Proc.devRef .tc main_v63) = _
  rw [Stretches.aggregate2_view,
    carried m ρ c main_v5 (by decide) (by decide) (by kept_through [hostOps1]),
    carried m ρ c main_v6 (by decide) (by decide) (by kept_through [hostOps1]),
    carried m ρ c main_v31 (by decide) (by decide) (by kept_through [hostOps1]),
    product2, entry_sources, entry_targets, entry_normalisation]

/-- and the second bias repeated 8 times as a one-row matrix. -/
theorem bias2 : W7 m ρ c (Proc.devRef .tc main_v67)
    = shapeCast S1x128 (shapeCast S128 (broadcastInDim S8x16 ![0, 1] bcast_S1x16_S8x16_0_1
        (shapeCast S1x16 (m ((c : Thread nD τ).loc main_arg5)) shapeCasts_S16_S1x16)) shapeCasts_S8x16_S128) shapeCasts_S128_S1x128 := by
  show after hostOps2 (W6 m ρ c) (Proc.devRef .tc main_v67) = _
  rw [Stretches.bias2_tiled, carried m ρ c main_arg5 (by decide) (by decide) (by kept_through [hostOps1]), entry_arg5]

/-! ## The third pallas_call and the result -/

/-- The result buffer ends at the network function of the six arguments. -/
theorem result : W9 m ρ c (Proc.devRef .tc main_v69)
    = Cert.Network.gcn (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  have h := (W8_arr m ρ c 2).trans (Region2.array (V7 m ρ) c)
  rw [show V7 m ρ c main_v63 = _ from aggregate2 m ρ c, show V7 m ρ c main_v67 = _ from bias2 m ρ c] at h
  show after hostOps3 (W8 m ρ c) (Proc.devRef .tc main_v69) = _
  rw [Stretches.result_view, show W8 m ρ c (Proc.devRef .tc main_v68) = _ from h]
  exact Cert.LaneDense.add_through_view _ _ shapeCasts_S50000x16_S6250x128 shapeCasts_S16_S1x16 bcast_S1x16_S8x16_0_1
    shapeCasts_S8x16_S128 shapeCasts_S128_S1x128 shapeCasts_S6250x128_S50000x16

end Cert.KernelIdeal.KernelValue

end
-- ==== Proof.ReferenceValue.lean ====
/-
  The reference program computes the network function.

  Its run ends with the result at the composed term of its 125 host operations. That term is the shared graph
  operations around four dense steps: the first product, the bias added along the rows with the maximum against
  zero, the second product, and the last bias added along the rows. Each dense step is its entry-by-entry function.
-/
import proofs.«181336_j1709396984302_2_alg».proof.Proof.ReferenceRun
import proofs.«181336_j1709396984302_2_alg».proof.Proof.Network

set_option maxRecDepth 16384

noncomputable section

namespace Cert.ReferenceIdeal.RefValue

open Cert.ReferenceIdeal Cert.ReferenceIdeal.Gen Idealize.ShloMosaic Idealize.ShloMosaic.TcCoe Idealize.SL.Sem
open Cert.Graph Cert.Layers Cert.Network

/-- The result term with the graph operations folded. -/
theorem result_folded (m : (ℓ : Loc nD τ sig) → Buf (Elt Ideal) ℓ) (c : Dev nD) :
    RunP.res_main_v94 (F := Ideal) m c
      = addf (aggregate16 (src (m ((c.tc : Thread nD τ).loc main_arg1))) (dst (m ((c.tc : Thread nD τ).loc main_arg1)))
            (norm (src (m ((c.tc : Thread nD τ).loc main_arg1))) (dst (m ((c.tc : Thread nD τ).loc main_arg1))))
            (Host.dotGeneral (φ₁ := .f32) (φ₂ := .f32) dot_S50000x64_S64x16_S50000x16_1_0_0_1_n_n none
              (maximumf (addf (aggregate64 (src (m ((c.tc : Thread nD τ).loc main_arg1))) (dst (m ((c.tc : Thread nD τ).loc main_arg1)))
                    (norm (src (m ((c.tc : Thread nD τ).loc main_arg1))) (dst (m ((c.tc : Thread nD τ).loc main_arg1))))
                    (Host.dotGeneral (φ₁ := .f32) (φ₂ := .f32) dot_S50000x128_S128x64_S50000x64_1_0_0_1_n_n none (m ((c.tc : Thread nD τ).loc main_arg0)) (m ((c.tc : Thread nD τ).loc main_arg2))))
                  (broadcastInDim S50000x64 ![0, 1] bcast_S1x64_S50000x64_0_1 (broadcastInDim S1x64 ![1] bcast_S64_S1x64_1 (m ((c.tc : Thread nD τ).loc main_arg3)))))
                (broadcastInDim S50000x64 ![] bcast_S_S50000x64 (constant (F := Ideal) S_ .f32 0x00000000#32)))
              (m ((c.tc : Thread nD τ).loc main_arg4))))
          (broadcastInDim S50000x16 ![0, 1] bcast_S1x16_S50000x16_0_1 (broadcastInDim S1x16 ![1] bcast_S16_S1x16_1 (m ((c.tc : Thread nD τ).loc main_arg5)))) := by
  unfold RunP.res_main_v94 aggregate16 aggregate64 Graph.norm normOf dinv dinvOf rsqrtDeg positive degree starts column src dst
  rfl

/-- The reference's result is the network function of its arguments. -/
theorem result_eq (m : (ℓ : Loc nD τ sig) → Buf (Elt Ideal) ℓ) (c : Dev nD) :
    RunP.res_main_v94 (F := Ideal) m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [result_folded]
  rw [dotGeneral_eq_prod dot_S50000x128_S128x64_S50000x64_1_0_0_1_n_n.wf dot_S50000x128_S128x64_S50000x64_1_0_0_1_n_n rfl]
  rw [host_biasRelu _ _ bcast_S64_S1x64_1 bcast_S1x64_S50000x64_0_1 bcast_S_S50000x64]
  rw [dotGeneral_eq_prod dot_S50000x64_S64x16_S50000x16_1_0_0_1_n_n.wf dot_S50000x64_S64x16_S50000x16_1_0_0_1_n_n rfl]
  rw [host_addRow _ _ bcast_S16_S1x16_1 bcast_S1x16_S50000x16_0_1]
  rfl

end Cert.ReferenceIdeal.RefValue

end
-- ==== Proof.lean ====
/-
  A two-layer graph convolution: a Pallas kernel against its jnp reference, equal on the extended reals.

  Both programs compute, from node features x [50000, 128], an edge array [2, 800000], weights W1 [128, 64],
  W2 [64, 16] and biases b1 [64], b2 [16]:
      h1  = max (A (x W1) + b1, 0),      out = A (h1 W2) + b2,
  where A gathers rows by edge source, scales row e by the symmetric degree normalisation ν(e) and sums the rows
  by edge target (self loops added). The reference does every step as a host operation. The kernel keeps the
  graph steps (degrees, normalisation, gather, scatter-add) as the same host operations and does the dense steps
  in three pallas_calls: x W1 on 25 blocks of 2000 rows; max (· + b1, 0) W2 on 25 blocks of 2000 rows; and the
  last bias addition on the [50000, 16] aggregate viewed as [6250, 128] with b2 repeated 8 times. It stores the two
  products in a shorter float format, which on the extended reals changes nothing.

  Why the results agree: a row block of a product is the product of the row block, and an entry of the rectified
  sum depends on one entry of each argument, so each blocked pallas_call leaves ONE function of the whole arrays
  (`prod`, `biasRelu`); the [6250, 128] view holds the same numbers in the same row-major order and entry l of the
  tiled bias is b2(l mod 16), so the last pallas_call adds b2 along the rows (`addRow`); and the graph operations
  between them are literally the reference's. No law of arithmetic beyond the definitions is used, so finiteness
  of the inputs is never needed.

  The three frames are the generated frame certificates and the reference's run; the idealization rewrote nothing,
  so `preserves` is trivial.
-/
import proofs.«181336_j1709396984302_2_alg».proof.Defs
import proofs.«181336_j1709396984302_2_alg».proof.Proof.Gen.Kernel
import proofs.«181336_j1709396984302_2_alg».proof.Proof.Gen.Kernel.Skeleton
import proofs.«181336_j1709396984302_2_alg».proof.Proof.Gen.Kernel.Launch
import proofs.«181336_j1709396984302_2_alg».proof.Proof.Gen.Kernel.Points
import proofs.«181336_j1709396984302_2_alg».proof.Proof.Gen.Kernel.Frame
import proofs.«181336_j1709396984302_2_alg».proof.Proof.Gen.KernelIdeal
import proofs.«181336_j1709396984302_2_alg».proof.Proof.Gen.KernelIdeal.Skeleton
import proofs.«181336_j1709396984302_2_alg».proof.Proof.Gen.KernelIdeal.Launch
import proofs.«181336_j1709396984302_2_alg».proof.Proof.Gen.KernelIdeal.Points
import proofs.«181336_j1709396984302_2_alg».proof.Proof.Gen.KernelIdeal.Frame
import proofs.«181336_j1709396984302_2_alg».proof.Proof.Gen.ReferenceIdeal
import proofs.«181336_j1709396984302_2_alg».proof.Proof.Gen.Pre_finite_inputs
import proofs.«181336_j1709396984302_2_alg».proof.Proof.KernelRun
import proofs.«181336_j1709396984302_2_alg».proof.Proof.KernelValue
import proofs.«181336_j1709396984302_2_alg».proof.Proof.ReferenceRun
import proofs.«181336_j1709396984302_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the result at the network function of the arguments, and the arguments agree. -/
theorem algebraic : Cert.algebraic_KernelIdeal_ReferenceIdeal := by
  intro m ρ m' ρ' _ hagree
  refine ⟨fun c => Cert.Network.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.RunValue.run (F := Ideal) m ρ)
  · refine (θ_run Cert.ReferenceIdeal.defs _ _).mono (fun r h c => ⟨?_, (h c).2⟩)
      (Cert.ReferenceIdeal.RunP.run (F := Ideal) m' ρ')
    obtain ⟨a0, a1, a2, a3, a4, a5⟩ := hagree c
    rw [(h c).1, Cert.ReferenceIdeal.RefValue.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
